-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S262144x3 : Shape := ⟨2, ![262144, 3]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel

variable [Facts]

def fn {F : FTy → Type} [FloatOps F] (main_arg0 : FVec F S262144x64 .f32) (main_arg1 : IVec S262144x3 32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  main_v3
-- ==== Kernel.lean ====
abbrev S262144x64 : Shape := ⟨2, ![262144, 64]⟩
abbrev S262144x3 : Shape := ⟨2, ![262144, 3]⟩
abbrev S262144x4x128 : Shape := ⟨3, ![262144, 4, 128]⟩
abbrev S2048x64 : Shape := ⟨2, ![2048, 64]⟩
abbrev S2048x4x128 : Shape := ⟨3, ![2048, 4, 128]⟩
abbrev S2048x128 : Shape := ⟨2, ![2048, 128]⟩
abbrev S2048x1x128 : Shape := ⟨3, ![2048, 1, 128]⟩
abbrev S2097152x64 : Shape := ⟨2, ![2097152, 64]⟩
abbrev S2 : Shape := ⟨1, ![2]⟩
abbrev S2x2x2 : Shape := ⟨3, ![2, 2, 2]⟩
abbrev S2x2x2x1 : Shape := ⟨4, ![2, 2, 2, 1]⟩
abbrev S2x2x2x3 : Shape := ⟨4, ![2, 2, 2, 3]⟩
abbrev S8x3 : Shape := ⟨2, ![8, 3]⟩
abbrev S262144x1x3 : Shape := ⟨3, ![262144, 1, 3]⟩
abbrev S_ : Shape := ⟨0, ![]⟩
abbrev S1x8x3 : Shape := ⟨3, ![1, 8, 3]⟩
abbrev S262144x8x3 : Shape := ⟨3, ![262144, 8, 3]⟩
abbrev S2097152x3 : Shape := ⟨2, ![2097152, 3]⟩

abbrev nBuf : Space → Nat
  | .hbm => 24
  | .vmem => 4
  | .smem => 0
  | _ => 0

abbrev bufTy : (tb : Table) → Fin (tcTables nBuf tb) → BufTy
  | .hbm, ⟨0, _⟩ => ⟨S262144x64, .f32⟩
  | .hbm, ⟨1, _⟩ => ⟨S262144x3, .i32⟩
  | .hbm, ⟨2, _⟩ => ⟨S262144x4x128, .f32⟩
  | .hbm, ⟨3, _⟩ => ⟨S2097152x64, .f32⟩
  | .hbm, ⟨4, _⟩ => ⟨S2, .i32⟩
  | .hbm, ⟨5, _⟩ => ⟨S2, .i32⟩
  | .hbm, ⟨6, _⟩ => ⟨S2, .i32⟩
  | .hbm, ⟨7, _⟩ => ⟨S2x2x2, .i32⟩
  | .hbm, ⟨8, _⟩ => ⟨S2x2x2, .i32⟩
  | .hbm, ⟨9, _⟩ => ⟨S2x2x2, .i32⟩
  | .hbm, ⟨10, _⟩ => ⟨S2x2x2x1, .i32⟩
  | .hbm, ⟨11, _⟩ => ⟨S2x2x2x1, .i32⟩
  | .hbm, ⟨12, _⟩ => ⟨S2x2x2x1, .i32⟩
  | .hbm, ⟨13, _⟩ => ⟨S2x2x2x3, .i32⟩
  | .hbm, ⟨14, _⟩ => ⟨S8x3, .i32⟩
  | .hbm, ⟨15, _⟩ => ⟨S262144x1x3, .i32⟩
  | .hbm, ⟨16, _⟩ => ⟨S_, .i32⟩
  | .hbm, ⟨17, _⟩ => ⟨S262144x1x3, .i32⟩
  | .hbm, ⟨18, _⟩ => ⟨S262144x1x3, .i32⟩
  | .hbm, ⟨19, _⟩ => ⟨S1x8x3, .i32⟩
  | .hbm, ⟨20, _⟩ => ⟨S262144x8x3, .i32⟩
  | .hbm, ⟨21, _⟩ => ⟨S262144x8x3, .i32⟩
  | .hbm, ⟨22, _⟩ => ⟨S262144x8x3, .i32⟩
  | .hbm, ⟨23, _⟩ => ⟨S2097152x3, .i32⟩
  | .local _ .vmem, ⟨0, _⟩ => ⟨S2048x64, .f32⟩
  | .local _ .vmem, ⟨1, _⟩ => ⟨S2048x64, .f32⟩
  | .local _ .vmem, ⟨2, _⟩ => ⟨S2048x4x128, .f32⟩
  | .local _ .vmem, ⟨3, _⟩ => ⟨S2048x4x128, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S2048x64_S2048x64_0_0 : ∀ a, (![0, 0] : Fin 2 → Nat) a + S2048x64.size a ≤ S2048x64.size a
  h_S2048x64 : 0 < S2048x64.numel
  concatenates_S2048x64_S2048x64_S2048x128_d1 : Shape.Concatenates [S2048x64, S2048x64] S2048x128 1
  shapeCasts_S2048x128_S2048x1x128 : S2048x128.ShapeCasts S2048x1x128
  shapeCasts_S2048x1x128_S2048x1x128 : S2048x1x128.ShapeCasts S2048x1x128
  broadcasts_S2048x1x128_S2048x4x128 : S2048x1x128.Broadcasts S2048x4x128
  inb_S2048x4x128_S2048x4x128_0_0_0 : ∀ a, (![0, 0, 0] : Fin 3 → Nat) a + S2048x4x128.size a ≤ S2048x4x128.size a
  h_S2048x4x128 : 0 < S2048x4x128.numel
  shapeCasts_S262144x4x128_S2097152x64 : S262144x4x128.ShapeCasts S2097152x64
  bcast_S2_S2x2x2_0 : S2.BroadcastsInDim S2x2x2 (![0] : Fin 1 → Fin S2x2x2.rank)
  bcast_S2_S2x2x2_1 : S2.BroadcastsInDim S2x2x2 (![1] : Fin 1 → Fin S2x2x2.rank)
  bcast_S2_S2x2x2_2 : S2.BroadcastsInDim S2x2x2 (![2] : Fin 1 → Fin S2x2x2.rank)
  bcast_S2x2x2_S2x2x2x1_0_1_2 : S2x2x2.BroadcastsInDim S2x2x2x1 (![0, 1, 2] : Fin 3 → Fin S2x2x2x1.rank)
  concatenates_S2x2x2x1_S2x2x2x1_S2x2x2x1_S2x2x2x3_d3 : Shape.Concatenates [S2x2x2x1, S2x2x2x1, S2x2x2x1] S2x2x2x3 3
  shapeCasts_S2x2x2x3_S8x3 : S2x2x2x3.ShapeCasts S8x3
  bcast_S262144x3_S262144x1x3_0_2 : S262144x3.BroadcastsInDim S262144x1x3 (![0, 2] : Fin 2 → Fin S262144x1x3.rank)
  bcast_S_S262144x1x3 : S_.BroadcastsInDim S262144x1x3 (![] : Fin 0 → Fin S262144x1x3.rank)
  bcast_S8x3_S1x8x3_1_2 : S8x3.BroadcastsInDim S1x8x3 (![1, 2] : Fin 2 → Fin S1x8x3.rank)
  bcast_S262144x1x3_S262144x8x3_0_1_2 : S262144x1x3.BroadcastsInDim S262144x8x3 (![0, 1, 2] : Fin 3 → Fin S262144x8x3.rank)
  bcast_S1x8x3_S262144x8x3_0_1_2 : S1x8x3.BroadcastsInDim S262144x8x3 (![0, 1, 2] : Fin 3 → Fin S262144x8x3.rank)
  shapeCasts_S262144x8x3_S2097152x3 : S262144x8x3.ShapeCasts S2097152x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S262144x64.size a
  hwx0_0 : ∀ i : grid0.Coords, EltTy.bits .f32 = 32 ∨ (Rect.block (s := S262144x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4x128.size a ≤ S262144x4x128.size a
  hwx0_1 : ∀ i : grid0.Coords, EltTy.bits .f32 = 32 ∨ (Rect.block (s := S262144x4x128) S2048x4x128.size (cc0_transform_1 i) (hinb0_1 i)).WholeWords (EltTy.packing .f32)

variable [Facts₀]

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x4x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S262144x64 : Shape := ⟨2, ![262144, 64]⟩
abbrev S262144x3 : Shape := ⟨2, ![262144, 3]⟩
abbrev S2 : Shape := ⟨1, ![2]⟩
abbrev S2x2x2 : Shape := ⟨3, ![2, 2, 2]⟩
abbrev S2x2x2x1 : Shape := ⟨4, ![2, 2, 2, 1]⟩
abbrev S2x2x2x3 : Shape := ⟨4, ![2, 2, 2, 3]⟩
abbrev S8x3 : Shape := ⟨2, ![8, 3]⟩
abbrev S262144x1x3 : Shape := ⟨3, ![262144, 1, 3]⟩
abbrev S_ : Shape := ⟨0, ![]⟩
abbrev S1x8x3 : Shape := ⟨3, ![1, 8, 3]⟩
abbrev S262144x8x3 : Shape := ⟨3, ![262144, 8, 3]⟩
abbrev S2097152x3 : Shape := ⟨2, ![2097152, 3]⟩
abbrev S262144x1x64 : Shape := ⟨3, ![262144, 1, 64]⟩
abbrev S262144x8x64 : Shape := ⟨3, ![262144, 8, 64]⟩
abbrev S2097152x64 : Shape := ⟨2, ![2097152, 64]⟩

abbrev nBuf : Space → Nat
  | .hbm => 25
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S262144x3, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S2x2x2, .i32⟩
  | .hbm, ⟨6, _⟩ => ⟨S2x2x2, .i32⟩
  | .hbm, ⟨7, _⟩ => ⟨S2x2x2, .i32⟩
  | .hbm, ⟨8, _⟩ => ⟨S2x2x2x1, .i32⟩
  | .hbm, ⟨9, _⟩ => ⟨S2x2x2x1, .i32⟩
  | .hbm, ⟨10, _⟩ => ⟨S2x2x2x1, .i32⟩
  | .hbm, ⟨11, _⟩ => ⟨S2x2x2x3, .i32⟩
  | .hbm, ⟨12, _⟩ => ⟨S8x3, .i32⟩
  | .hbm, ⟨13, _⟩ => ⟨S262144x1x3, .i32⟩
  | .hbm, ⟨14, _⟩ => ⟨S_, .i32⟩
  | .hbm, ⟨15, _⟩ => ⟨S262144x1x3, .i32⟩
  | .hbm, ⟨16, _⟩ => ⟨S262144x1x3, .i32⟩
  | .hbm, ⟨17, _⟩ => ⟨S1x8x3, .i32⟩
  | .hbm, ⟨18, _⟩ => ⟨S262144x8x3, .i32⟩
  | .hbm, ⟨19, _⟩ => ⟨S262144x8x3, .i32⟩
  | .hbm, ⟨20, _⟩ => ⟨S262144x8x3, .i32⟩
  | .hbm, ⟨21, _⟩ => ⟨S2097152x3, .i32⟩
  | .hbm, ⟨22, _⟩ => ⟨S262144x1x64, .f32⟩
  | .hbm, ⟨23, _⟩ => ⟨S262144x8x64, .f32⟩
  | .hbm, ⟨24, _⟩ => ⟨S2097152x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_c : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]

class Facts₀ : Prop where
  bcast_S2_S2x2x2_0 : S2.BroadcastsInDim S2x2x2 (![0] : Fin 1 → Fin S2x2x2.rank)
  bcast_S2_S2x2x2_1 : S2.BroadcastsInDim S2x2x2 (![1] : Fin 1 → Fin S2x2x2.rank)
  bcast_S2_S2x2x2_2 : S2.BroadcastsInDim S2x2x2 (![2] : Fin 1 → Fin S2x2x2.rank)
  bcast_S2x2x2_S2x2x2x1_0_1_2 : S2x2x2.BroadcastsInDim S2x2x2x1 (![0, 1, 2] : Fin 3 → Fin S2x2x2x1.rank)
  concatenates_S2x2x2x1_S2x2x2x1_S2x2x2x1_S2x2x2x3_d3 : Shape.Concatenates [S2x2x2x1, S2x2x2x1, S2x2x2x1] S2x2x2x3 3
  shapeCasts_S2x2x2x3_S8x3 : S2x2x2x3.ShapeCasts S8x3
  bcast_S262144x3_S262144x1x3_0_2 : S262144x3.BroadcastsInDim S262144x1x3 (![0, 2] : Fin 2 → Fin S262144x1x3.rank)
  bcast_S_S262144x1x3 : S_.BroadcastsInDim S262144x1x3 (![] : Fin 0 → Fin S262144x1x3.rank)
  bcast_S8x3_S1x8x3_1_2 : S8x3.BroadcastsInDim S1x8x3 (![1, 2] : Fin 2 → Fin S1x8x3.rank)
  bcast_S262144x1x3_S262144x8x3_0_1_2 : S262144x1x3.BroadcastsInDim S262144x8x3 (![0, 1, 2] : Fin 3 → Fin S262144x8x3.rank)
  bcast_S1x8x3_S262144x8x3_0_1_2 : S1x8x3.BroadcastsInDim S262144x8x3 (![0, 1, 2] : Fin 3 → Fin S262144x8x3.rank)
  shapeCasts_S262144x8x3_S2097152x3 : S262144x8x3.ShapeCasts S2097152x3
  bcast_S262144x64_S262144x1x64_0_2 : S262144x64.BroadcastsInDim S262144x1x64 (![0, 2] : Fin 2 → Fin S262144x1x64.rank)
  bcast_S262144x1x64_S262144x8x64_0_1_2 : S262144x1x64.BroadcastsInDim S262144x8x64 (![0, 1, 2] : Fin 3 → Fin S262144x8x64.rank)
  shapeCasts_S262144x8x64_S2097152x64 : S262144x8x64.ShapeCasts S2097152x64

variable [Facts₀]

class Facts : Prop extends Facts₀ where

variable [Facts]
-- ==== Proof.FrameBits.lean ====
/-
  The frame of the nearest-neighbour upsampling kernel program, at any float instance.

  @main is ONE region followed by host lines: a grid of 128 points, point t staging rows [2048 t, 2048 t + 2048) of the
  feature array (64 wide) and writing back block t of the packed array [262144, 4, 128]; then a reshape of the packed
  array and an integer chain on the coordinate array. Nothing precedes the region, so the region finds every buffer as
  launched.

  The body at a point loads its input block x (2048 x 64), lays it twice side by side (2048 x 128), repeats that row
  over the 4 groups, and stores the result over its whole output block; it also loads the output block first and never
  uses what it read. So after the body the output block holds ONE piece, the packed copy of x, covering the block.

  From that: the proof data of the pipeline (each input block as found, each output block the packed copy of the input
  block), the body's triple, the body obligation at a symbolic point, the run of @main around the region, and the frame:
  both argument arrays end as launched (the feature array is a staged input, the coordinate array is written by no
  host line).
-/
import proofs.«122983_j22359599743098_2_alg».proof.Proof.Gen.Kernel.Launch
import proofs.«122983_j22359599743098_2_alg».proof.Proof.Gen.Kernel.Skeleton
import proofs.«122983_j22359599743098_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Upsample

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line precedes the region, so the empty list of
    lines applied to the launch memory. -/
abbrev entry (c : Dev nD) : Valuation τ sig (Elt F) :=
  StableHlo.after (List.flatten ([] : List (List (HloOp τ sig (Elt F))))) (fun b => m (c, b))
/-- The same read at a TensorCore reference. -/
abbrev atEntry (c : Dev nD) (b : Ref sig .tc) : Buf (Elt F) ((c : Thread nD τ).loc b) := entry m c (Proc.devRef .tc b)

/-- The region finds every buffer as launched. -/
theorem atEntry_eq (c : Dev nD) (b : Ref sig .tc) : atEntry m c b = m ((c : Thread nD τ).loc b) := rfl

/-- The host lines after the region allocate nothing. -/
theorem tail_fresh : (hostOps1 : List (HloOp τ sig (Elt F))).Forall fun op => op.fresh = ∅ := by
  simp only [List.Forall]; repeat' constructor

/-- @main is the region continued by the host lines. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [] [hostOps1] (by simp only [List.Forall])
    (by simp only [List.Forall]) main_chain

/-- The lines after the region touch unscoped TensorCore buffers only: the pipeline's two arrays and the buffers that
    bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- No line after the region writes the feature array or the packed array: each writes its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No line after the region writes an argument array `b`: it ends as the region left it. -/
theorem tail_keeps_ref (b : Ref sig .tc)
    (hb : ∀ op ∈ (hostOps1 : List (HloOp τ sig (Elt F))), Proc.devRef .tc b ∉ op.writes)
    (V : Valuation τ sig (Elt F)) :
    StableHlo.after (List.flatten [hostOps1]) V (Proc.devRef .tc b) = V (Proc.devRef .tc b) :=
  StableHlo.after_of_forall_not_mem (b := Proc.devRef .tc b) _ _ (by
    simpa only [List.flatten_cons, List.flatten_nil, List.append_nil] using hb)

theorem tail_keeps_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.nary_writes, StableHlo.reshape_writes, Finset.mem_singleton] <;> exact StableHlo.devRef_ne_of_ne (by decide)

theorem tail_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.nary_writes, StableHlo.reshape_writes, Finset.mem_singleton] <;> exact StableHlo.devRef_ne_of_ne (by decide)

/-! ## The input block at a point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The feature window's staging buffer holds its block at every point, for any proof data whose array is the
    region-entry one and whose body leaves the block in place. -/
theorem input_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The whole input block and the whole output block, as rectangles. -/
abbrev wholeIn : Rect S2048x64 := Rect.unit (s := S2048x64) ![0, 0] S2048x64.size inb_S2048x64_S2048x64_0_0
abbrev wholeOut : Rect S2048x4x128 := Rect.unit (s := S2048x4x128) ![0, 0, 0] S2048x4x128.size inb_S2048x4x128_S2048x4x128_0_0_0

/-- The output block after the body: one piece over the whole block, the packed copy of the input block. -/
def packedBlock (x : Vec F S2048x64 .f32) : Vec F S2048x4x128 .f32 :=
  View.canon [⟨wholeOut, k0_pay1 (View.ld x wholeIn)⟩]

/-- The one store covers the block. -/
theorem store_covers (p : Vec F S2048x4x128 .f32) (y : S2048x4x128.Idx) :
    ∃ pc ∈ ([⟨wholeOut, p⟩] : List (View.Piece (Elt F) S2048x4x128 .f32)), y ∈ pc.1.set :=
  View.cover_of_tiled [⟨wholeOut, p⟩] S2048x4x128.size (by rfl) y

/-! ## The body's triple -/

set_option maxHeartbeats 1000000 in
/-- The body on whole staging buffers, the input's at contents `x` and the output's at anything, runs to the
    continuation holding the input's as it was and the output's at the packed copy of `x`. -/
theorem body_triple (c : Dev nD) (E : Set ℕ) (i : grid0.Coords) (arg1 : Memref sig .tc .vmem S2048x64 .f32) (harg1 : arg1.IsWhole) (arg2 : Memref sig .tc .vmem S2048x4x128 .f32) (harg2 : arg2.IsWhole)
    (x : Vec F S2048x64 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (packedBlock x)) -∗ K ⟨⟩))
      ⊢ wp frame (wpE (defs₀ (F := F)) Variants.none c none) E (cc0__scatter_kernel i arg1 harg1 arg2 harg2) K := by
  simp only [cc0__scatter_kernel_eq_skeleton]; unfold cc0__scatter_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The pipeline's proof data -/

/-- On core `c`: the arrays as the region finds them; after the body at point `t` the input's buffer at its block and
    the output's at the packed copy of that block; the invariant the scoped rest and the generator register, untouched;
    nothing owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => packedBlock (blockAt m c 0 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after_in (c : Dev nD) (t : Fin cfg0.N) : (data m 0 c).after 0 t = blockAt m c 0 t := by dsimp only [data]
theorem after_out (c : Dev nD) (t : Fin cfg0.N) : (data m 0 c).after 1 t = packedBlock (blockAt m c 0 t) := by dsimp only [data]

theorem before_in (c : Dev nD) (t : Fin cfg0.N) (d) : (data m 0 c).before 0 t d = blockAt m c 0 t :=
  input_found m (data m 0 c) (data_A m c 0) (after_in m c) t d

/-! ## The body obligation, at a symbolic point -/

/-- What the body is called with at point `t`, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (data m 0 c).Φ t.succ = (data m 0 c).Φ t.castSucc from rfl,
    show (data m 0 c).owesAt () t.succ = (data m 0 c).owesAt () t.castSucc from rfl,
    after_in, after_out]
  iintro ⟨HΦ, Ho, ⟨%d0, H0⟩, ⟨%d1, H1⟩⟩
  iapply (body_triple c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (data (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, and every final state has the two arrays of the pipeline at what
    the write-backs leave and every other unscoped buffer as the lines after the region leave it. -/
theorem run_around : θ_run defs (onTc (τ := τ) (main (F := F))) (s₀ m ρ) (Pipeline.FramePost cfgs (data m) 0 (Pipeline.afterTail₀ cfgs (data m) 0 (entry m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry m) (opss := [hostOps1]) (hsub := tail_sub) (hfresh := tail_allocates_nothing) (hkeep := tail_keeps)
    (hmain := main_around m Variants.none) (hA := data_A m) (hΦ := fun _ _ => rfl)

/-- The coordinate array after the lines: no line writes it and it is no array of the pipeline. -/
theorem arg1_kept (c : Dev nD) :
    Pipeline.afterTail₀ cfgs (data m) 0 (entry m) [hostOps1] c main_arg1 = m ((c : Thread nD τ).loc main_arg1) := by
  unfold Pipeline.afterTail₀
  rw [tail_keeps_ref main_arg1 tail_keeps_arg1,
    Pipeline.withArrays_of_ne _ c (entry m c) _ main_arg1 (by exact (by decide : ∀ w, Pipeline.arrRef spec0 w ≠ main_arg1))]
  rfl

/-- THE FRAME: both argument arrays end as launched. The feature array is the pipeline's staged input (an input's array
    is never written back); the coordinate array bypasses the region and no host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((data m 0 c).arrAt_in 0 rfl _).trans (data_A m c 0)),
     ((h c).2 main_arg1 (Pipeline.mem_restRefs_of main_arg1 (by decide) (by decide))).trans (arg1_kept m c)⟩) (run_around m ρ)

end Cert.Kernel.Upsample

end
-- ==== Proof.FrameIdeal.lean ====
/-
  The frame of the nearest-neighbour upsampling kernel program, at any float instance.

  @main is ONE region followed by host lines: a grid of 128 points, point t staging rows [2048 t, 2048 t + 2048) of the
  feature array (64 wide) and writing back block t of the packed array [262144, 4, 128]; then a reshape of the packed
  array and an integer chain on the coordinate array. Nothing precedes the region, so the region finds every buffer as
  launched.

  The body at a point loads its input block x (2048 x 64), lays it twice side by side (2048 x 128), repeats that row
  over the 4 groups, and stores the result over its whole output block; it also loads the output block first and never
  uses what it read. So after the body the output block holds ONE piece, the packed copy of x, covering the block.

  From that: the proof data of the pipeline (each input block as found, each output block the packed copy of the input
  block), the body's triple, the body obligation at a symbolic point, the run of @main around the region, and the frame:
  both argument arrays end as launched (the feature array is a staged input, the coordinate array is written by no
  host line).
-/
import proofs.«122983_j22359599743098_2_alg».proof.Proof.Gen.KernelIdeal.Launch
import proofs.«122983_j22359599743098_2_alg».proof.Proof.Gen.KernelIdeal.Skeleton
import proofs.«122983_j22359599743098_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Upsample

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host line precedes the region, so the empty list of
    lines applied to the launch memory. -/
abbrev entry (c : Dev nD) : Valuation τ sig (Elt F) :=
  StableHlo.after (List.flatten ([] : List (List (HloOp τ sig (Elt F))))) (fun b => m (c, b))
/-- The same read at a TensorCore reference. -/
abbrev atEntry (c : Dev nD) (b : Ref sig .tc) : Buf (Elt F) ((c : Thread nD τ).loc b) := entry m c (Proc.devRef .tc b)

/-- The region finds every buffer as launched. -/
theorem atEntry_eq (c : Dev nD) (b : Ref sig .tc) : atEntry m c b = m ((c : Thread nD τ).loc b) := rfl

/-- The host lines after the region allocate nothing. -/
theorem tail_fresh : (hostOps1 : List (HloOp τ sig (Elt F))).Forall fun op => op.fresh = ∅ := by
  simp only [List.Forall]; repeat' constructor

/-- @main is the region continued by the host lines. -/
theorem main_around (𝒱₀ : Variants) : Pipeline.HMainK (Ix := Unit) (Name := ℕ) (U := UR sig nD τ) (Lvl := ℕ) cfgs 0 defs₀ 𝒱₀ m (main (F := F)) (atEntry m)
      (fun _ => Pipeline.chain [StableHlo.seq hostOps1]) :=
  Pipeline.hmain_around cfgs 0 defs₀ 𝒱₀ m main [] [hostOps1] (by simp only [List.Forall])
    (by simp only [List.Forall]) main_chain

/-- The lines after the region touch unscoped TensorCore buffers only: the pipeline's two arrays and the buffers that
    bypass the region. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem tail_allocates_nothing : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh) op hop

/-- No line after the region writes the feature array or the packed array: each writes its own result buffer. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.nary_writes, StableHlo.reshape_writes, Finset.mem_singleton] <;> exact StableHlo.devRef_ne_of_ne (by decide)

/-- No line after the region writes an argument array `b`: it ends as the region left it. -/
theorem tail_keeps_ref (b : Ref sig .tc)
    (hb : ∀ op ∈ (hostOps1 : List (HloOp τ sig (Elt F))), Proc.devRef .tc b ∉ op.writes)
    (V : Valuation τ sig (Elt F)) :
    StableHlo.after (List.flatten [hostOps1]) V (Proc.devRef .tc b) = V (Proc.devRef .tc b) :=
  StableHlo.after_of_forall_not_mem (b := Proc.devRef .tc b) _ _ (by
    simpa only [List.flatten_cons, List.flatten_nil, List.append_nil] using hb)

theorem tail_keeps_arg0 : ∀ op ∈ (hostOps1 : List (HloOp τ sig (Elt F))), Proc.devRef .tc main_arg0 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.nary_writes, StableHlo.reshape_writes, Finset.mem_singleton] <;> exact StableHlo.devRef_ne_of_ne (by decide)

theorem tail_keeps_arg1 : ∀ op ∈ (hostOps1 : List (HloOp τ sig (Elt F))), Proc.devRef .tc main_arg1 ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals simp only [StableHlo.nullary_writes, StableHlo.unary_writes, StableHlo.binary_writes, StableHlo.nary_writes, StableHlo.reshape_writes, Finset.mem_singleton] <;> exact StableHlo.devRef_ne_of_ne (by decide)

/-! ## The input block at a point -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The feature window's staging buffer holds its block at every point, for any proof data whose array is the
    region-entry one and whose body leaves the block in place. -/
theorem input_found {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output block -/

/-- The whole input block and the whole output block, as rectangles. -/
abbrev wholeIn : Rect S2048x64 := Rect.unit (s := S2048x64) ![0, 0] S2048x64.size inb_S2048x64_S2048x64_0_0
abbrev wholeOut : Rect S2048x4x128 := Rect.unit (s := S2048x4x128) ![0, 0, 0] S2048x4x128.size inb_S2048x4x128_S2048x4x128_0_0_0

/-- The output block after the body: one piece over the whole block, the packed copy of the input block. -/
def packedBlock (x : Vec F S2048x64 .f32) : Vec F S2048x4x128 .f32 :=
  View.canon [⟨wholeOut, k0_pay1 (View.ld x wholeIn)⟩]

/-- The one store covers the block. -/
theorem store_covers (p : Vec F S2048x4x128 .f32) (y : S2048x4x128.Idx) :
    ∃ pc ∈ ([⟨wholeOut, p⟩] : List (View.Piece (Elt F) S2048x4x128 .f32)), y ∈ pc.1.set :=
  View.cover_of_tiled [⟨wholeOut, p⟩] S2048x4x128.size (by rfl) y

/-! ## The body's triple -/

set_option maxHeartbeats 1000000 in
/-- The body on whole staging buffers, the input's at contents `x` and the output's at anything, runs to the
    continuation holding the input's as it was and the output's at the packed copy of `x`. -/
theorem body_triple (c : Dev nD) (E : Set ℕ) (i : grid0.Coords) (arg1 : Memref sig .tc .vmem S2048x64 .f32) (harg1 : arg1.IsWhole) (arg2 : Memref sig .tc .vmem S2048x4x128 .f32) (harg2 : arg2.IsWhole)
    (x : Vec F S2048x64 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (packedBlock x)) -∗ K ⟨⟩))
      ⊢ wp frame (wpE (defs₀ (F := F)) Variants.none c none) E (cc0__scatter_kernel i arg1 harg1 arg2 harg2) K := by
  simp only [cc0__scatter_kernel_eq_skeleton]; unfold cc0__scatter_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers _)

/-! ## The pipeline's proof data -/

/-- On core `c`: the arrays as the region finds them; after the body at point `t` the input's buffer at its block and
    the output's at the packed copy of that block; the invariant the scoped rest and the generator register, untouched;
    nothing owed; full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => packedBlock (blockAt m c 0 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after_in (c : Dev nD) (t : Fin cfg0.N) : (data m 0 c).after 0 t = blockAt m c 0 t := by dsimp only [data]
theorem after_out (c : Dev nD) (t : Fin cfg0.N) : (data m 0 c).after 1 t = packedBlock (blockAt m c 0 t) := by dsimp only [data]

theorem before_in (c : Dev nD) (t : Fin cfg0.N) (d) : (data m 0 c).before 0 t d = blockAt m c 0 t :=
  input_found m (data m 0 c) (data_A m c 0) (after_in m c) t d

/-! ## The body obligation, at a symbolic point -/

/-- What the body is called with at point `t`, -/
def bodyPre (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- and what it returns. -/
def bodyPost (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (data m 0 c).Φ t.succ = (data m 0 c).Φ t.castSucc from rfl,
    show (data m 0 c).owesAt () t.succ = (data m 0 c).owesAt () t.castSucc from rfl,
    after_in, after_out]
  iintro ⟨HΦ, Ho, ⟨%d0, H0⟩, ⟨%d1, H1⟩⟩
  iapply (body_triple c Set.univ (grid0.coords t) _ _ _ _ (blockAt m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation (c : Dev nD) : BodyObligation (data (F := F) m 0 c) (defs₀ (F := F)) Variants.none () Set.univ := fun t => by
  rw [bigSep_W0, bigSep_W0]
  exact body_at_point m c t

/-! ## The run and the frame -/

set_option backward.isDefEq.respectTransparency.types false in
/-- Every weakly fair execution of @main terminates, and every final state has the two arrays of the pipeline at what
    the write-backs leave and every other unscoped buffer as the lines after the region leave it. -/
theorem run_around : θ_run defs (onTc (τ := τ) (main (F := F))) (s₀ m ρ) (Pipeline.FramePost cfgs (data m) 0 (Pipeline.afterTail₀ cfgs (data m) 0 (entry m) [hostOps1])) :=
  Pipeline.θ_run_frame_around cfgs (data m) (0 : Fin 1) launch0 defs₀ Variants.none m ρ main
    (hbody := fun c => (body_obligation m c).loose) (hshare := fun c => (data m 0 c).share_full fun _ => rfl)
    (howed := fun _ _ => rfl) (V₀ := entry m) (opss := [hostOps1]) (hsub := tail_sub) (hfresh := tail_allocates_nothing) (hkeep := tail_keeps)
    (hmain := main_around m Variants.none) (hA := data_A m) (hΦ := fun _ _ => rfl)

/-- The coordinate array after the lines: no line writes it and it is no array of the pipeline. -/
theorem arg1_kept (c : Dev nD) :
    Pipeline.afterTail₀ cfgs (data m) 0 (entry m) [hostOps1] c main_arg1 = m ((c : Thread nD τ).loc main_arg1) := by
  unfold Pipeline.afterTail₀
  rw [tail_keeps_ref main_arg1 tail_keeps_arg1,
    Pipeline.withArrays_of_ne _ c (entry m c) _ main_arg1 (by exact (by decide : ∀ w, Pipeline.arrRef spec0 w ≠ main_arg1))]
  rfl

/-- THE FRAME: both argument arrays end as launched. The feature array is the pipeline's staged input (an input's array
    is never written back); the coordinate array bypasses the region and no host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((data m 0 c).arrAt_in 0 rfl _).trans (data_A m c 0)),
     ((h c).2 main_arg1 (Pipeline.mem_restRefs_of main_arg1 (by decide) (by decide))).trans (arg1_kept m c)⟩) (run_around m ρ)

end Cert.KernelIdeal.Upsample

end
-- ==== Proof.PackedIdeal.lean ====
/-
  The packed copy of a block, read at an index.

  The body lays its input block x (2048 rows, 64 columns) twice side by side (2048 x 128): lane l of a row is column l of
  the first copy for l < 64 and column l - 64 of the second for l >= 64, that is column l mod 64 of x either way. The
  two casts only insert a unit axis (2048 x 1 x 128), and the broadcast repeats that one row over the 4 groups. So the
  entry at row p, group g, lane l is x at row p, column l mod 64, whatever g is.
-/
import proofs.«122983_j22359599743098_2_alg».proof.Proof.Gen.KernelIdeal.Skeleton
import Idealize.ShloMosaic.Lib.ValueIdx
import Idealize.ShloMosaic.Lib.Pipeline.Value

noncomputable section

namespace Cert.KernelIdeal.Upsample

open Cert.KernelIdeal Cert.KernelIdeal.Gen
open Idealize.ShloMosaic Idealize.ShloMosaic.ValueIdx

variable {F : FTy → Type} [FloatOps F]

/-- The column of the feature row that lane `l` of a packed row holds. -/
abbrev laneCol (l : Fin 128) : Fin 64 := ⟨l.val % 64, Nat.mod_lt _ (by decide)⟩

/-- Two copies of a block side by side, read at row `p`, lane `l`: column `l mod 64` of the block. -/
theorem twice_apply (x : Vec F S2048x64 .f32) (p : Fin 2048) (l : Fin 128) :
    concatenate S2048x128 1 [⟨S2048x64, x⟩, ⟨S2048x64, x⟩] concatenates_S2048x64_S2048x64_S2048x128_d1 (ix2 p l)
      = x (ix2 p (laneCol l)) := by
  by_cases h : l.val < 64
  · refine concatenate_pair_apply_left (t := S2048x128) (s₁ := S2048x64) (s₂ := S2048x64) 1 x x _ (ix2 p l) rfl (ix2 p (laneCol l)) ?_
    intro b
    match b with
    | ⟨0, _⟩ => rfl
    | ⟨1, _⟩ => show l.val % 64 = l.val; omega
  · refine concatenate_pair_apply_right (t := S2048x128) (s₁ := S2048x64) (s₂ := S2048x64) 1 x x _ (ix2 p l) rfl rfl (ix2 p (laneCol l)) ?_ ?_
    · intro b hb
      match b, hb with
      | ⟨0, _⟩, _ => rfl
      | ⟨1, _⟩, hb => exact absurd rfl hb
    · show l.val % 64 + 64 = l.val
      have := l.isLt
      omega

/-- THE PACKED COPY AT AN INDEX: row `p`, group `g`, lane `l` holds the block's row `p` at column `l mod 64`. -/
theorem packed_apply (x : Vec F S2048x64 .f32) (p : Fin 2048) (g : Fin 4) (l : Fin 128) :
    k0_pay1 x (ix3 p g l) = x (ix2 p (laneCol l)) := by
  unfold k0_pay1
  show broadcastTo S2048x4x128 (shapeCast S2048x1x128 (shapeCast S2048x1x128
      (concatenate S2048x128 1 [⟨S2048x64, x⟩, ⟨S2048x64, x⟩] concatenates_S2048x64_S2048x64_S2048x128_d1)
      shapeCasts_S2048x128_S2048x1x128) shapeCasts_S2048x1x128_S2048x1x128) broadcasts_S2048x1x128_S2048x4x128 (ix3 p g l) = _
  rw [shapeCast_self]
  refine (broadcastTo_apply _ broadcasts_S2048x1x128_S2048x4x128 (ix3 p g l) (ix3 p (0 : Fin 1) l) ?_).trans ?_
  · intro a
    match a with
    | ⟨0, _⟩ => show p.val = if (2048 : Nat) = 1 then 0 else p.val; rw [if_neg (by decide)]
    | ⟨1, _⟩ => show (0 : Nat) = if (1 : Nat) = 1 then 0 else g.val; rw [if_pos rfl]
    | ⟨2, _⟩ => show l.val = if (128 : Nat) = 1 then 0 else l.val; rw [if_neg (by decide)]
  refine (shapeCast_apply _ shapeCasts_S2048x128_S2048x1x128 (ix3 p (0 : Fin 1) l) (ix2 p l) ?_).trans ?_
  · rw [Shape.rowMajor_val_two, Shape.rowMajor_val_three]
    show p.val * 128 + l.val = (p.val * 1 + 0) * 128 + l.val
    omega
  exact twice_apply x p l

end Cert.KernelIdeal.Upsample

end
-- ==== Proof.ValueIdeal.lean ====
/-
  The kernel program's two results as functions of its argument arrays.

  The packed array [262144, 4, 128] after the region: point t writes back the packed copy of rows [2048 t, 2048 t + 2048)
  of the feature array as block t, the 128 blocks tile the array, so entry (n, g, l) ends holding the feature array's
  row n at column l mod 64.

  The first result is the row-major reshape of the packed array to [2097152, 64]. Entry (r, k) sits at row-major
  position 64 r + k = 512 (r / 8) + 128 ((r mod 8) / 2) + (64 (r mod 2) + k), that is packed entry
  (r / 8, (r mod 8) / 2, 64 (r mod 2) + k), which holds the feature array's row r / 8 at column k: every coarse row
  repeated over its 8 fine rows.

  The second result is the integer chain of host lines on the coordinate array; the region does not touch that array,
  so the chain's composed term of the launch contents is the result.
-/
import proofs.«122983_j22359599743098_2_alg».proof.Proof.FrameIdeal
import proofs.«122983_j22359599743098_2_alg».proof.Proof.PackedIdeal
import Idealize.ShloMosaic.Lib.Pipeline.Value
import Idealize.ShloMosaic.Lib.StableHlo.Run

set_option maxRecDepth 16384

noncomputable section

namespace Cert.KernelIdeal.Upsample

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## The packed array -/

/-- The packed array of a feature array: entry (n, g, l) is the feature array's row n at column l mod 64. -/
def packedOf (X : S262144x64.Idx → Elt F .f32) : S262144x4x128.Idx → Elt F .f32 := fun j =>
  X (ix2 (⟨(j 0).val, (j 0).isLt⟩ : Fin 262144) (⟨(j 2).val % 64, Nat.mod_lt _ (by decide)⟩ : Fin 64))

/-- The printed index maps over the grid: at point t both windows are at block t of their leading axis and block 0 of the others. -/
theorem index_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- WHAT POINT t WRITES BACK is block t of the packed array of the feature array as the region finds it. -/
theorem flushed_eq (c : Dev nD) (t : Fin cfg0.N) :
    (data m 0 c).flushed 1 t = ((cfg0.win 1).blk t).view.read (Elt F) (packedOf (atEntry m c main_arg0)) := by
  show (cfg0.win 1).cut (grid0.coords t) ((data m 0 c).after 1 t) = _
  rw [after_out]
  unfold packedBlock
  rw [View.canon_unit_zero zero3]
  simp only [View.ld_unit_zero (S := S2048x64) zero2]
  obtain ⟨e0, e1, e2, e3, e4⟩ := index_facts t
  funext j
  show k0_pay1 (blockAt m c 0 t) j = packedOf (atEntry m c main_arg0) (((cfg0.win 1).blk t).view.emb j)
  obtain ⟨p, g, l, rfl⟩ : ∃ (p : Fin 2048) (g : Fin 4) (l : Fin 128), j = ix3 p g l := ⟨j 0, j 1, j 2, eq_ix3 j⟩
  rw [packed_apply]
  show atEntry m c main_arg0 (((cfg0.win 0).blk t).view.emb (ix2 p (laneCol l))) = atEntry m c main_arg0 _
  refine congrArg (atEntry m c main_arg0) (funext fun a => Fin.ext ?_)
  match a with
  | ⟨0, _⟩ => show win0_0.index t (0 : Fin 2) * 2048 + 1 * p.val = win0_1.index t (0 : Fin 3) * 2048 + 1 * p.val; omega
  | ⟨1, _⟩ => show win0_0.index t (1 : Fin 2) * 64 + 1 * (l.val % 64) = (win0_1.index t (2 : Fin 3) * 128 + 1 * l.val) % 64; omega

/-- An index of the packed array is in point t's block iff each coordinate is in the block's range on its axis. -/
theorem mem_block (t : Fin cfg0.N) (i : S262144x4x128.Idx) :
    i ∈ ((cfg0.win 1).blk t).view.set ↔ ∀ a : Fin 3, win0_1.index t a * S2048x4x128.size a ≤ (i a).val ∧ (i a).val < win0_1.index t a * S2048x4x128.size a + S2048x4x128.size a := by
  show i ∈ ((View.whole main_v0).slice (win0_1.rect t)).set ↔ _
  rw [View.set_slice_whole, Rect.mem_set_unit]
  exact Iff.rfl

/-- Every index of the packed array is in the block of the point its row falls in: row n is in block n / 2048. -/
theorem covered (i : S262144x4x128.Idx) :
    ∃ t : Fin cfg0.N, (cfg0.win 1).flush t = true ∧ i ∈ ((cfg0.win 1).blk t).view.set := by
  have h0 : (i 0).val < 262144 := (i 0).isLt
  have h1 : (i 1).val < 4 := (i 1).isLt
  have h2 : (i 2).val < 128 := (i 2).isLt
  have hN : cfg0.N = 128 := N_0
  obtain ⟨t, ht⟩ : ∃ t : Fin cfg0.N, t.val = (i 0).val / 2048 := ⟨⟨(i 0).val / 2048, by rw [hN]; omega⟩, rfl⟩
  obtain ⟨e0, e1, e2, e3, e4⟩ := index_facts t
  refine ⟨t, flush0_1 t, ?_⟩
  rw [mem_block]
  intro a
  match a with
  | ⟨0, _⟩ => show win0_1.index t (0 : Fin 3) * 2048 ≤ (i 0).val ∧ (i 0).val < win0_1.index t (0 : Fin 3) * 2048 + 2048; omega
  | ⟨1, _⟩ => show win0_1.index t (1 : Fin 3) * 4 ≤ (i 1).val ∧ (i 1).val < win0_1.index t (1 : Fin 3) * 4 + 4; omega
  | ⟨2, _⟩ => show win0_1.index t (2 : Fin 3) * 128 ≤ (i 2).val ∧ (i 2).val < win0_1.index t (2 : Fin 3) * 128 + 128; omega

/-- THE PACKED ARRAY after the region. -/
theorem packed_final (c : Dev nD) :
    (data m 0 c).arrAt 1 cfg0.N = packedOf (m ((c : Thread nD τ).loc main_arg0)) :=
  (data m 0 c).arrAt_eq_of_cover 1 (packedOf (atEntry m c main_arg0)) (fun t _ => flushed_eq m c t) covered

/-! ## The reshape: every coarse row repeated over its 8 fine rows -/

/-- The first result of a feature array: entry (r, k) is the feature array's row r / 8 at column k. -/
def repeatedOf (X : S262144x64.Idx → Elt F .f32) : S2097152x64.Idx → Elt F .f32 := fun i =>
  X (ix2 (⟨(i 0).val / 8, by have h : (i 0).val < 2097152 := (i 0).isLt; show (i 0).val / 8 < 262144; omega⟩ : Fin 262144) (⟨(i 1).val, (i 1).isLt⟩ : Fin 64))

/-- The row-major reshape of the packed array is the repetition. -/
theorem reshape_packed (X : S262144x64.Idx → Elt F .f32) :
    shapeCast S2097152x64 (packedOf X) shapeCasts_S262144x4x128_S2097152x64 = repeatedOf X := by
  funext i
  have h0 : (i 0).val < 2097152 := (i 0).isLt
  have h1 : (i 1).val < 64 := (i 1).isLt
  refine (shapeCast_apply (packedOf X) shapeCasts_S262144x4x128_S2097152x64 i
    (ix3 (⟨(i 0).val / 8, by omega⟩ : Fin 262144) (⟨(i 0).val % 8 / 2, by omega⟩ : Fin 4) (⟨(i 0).val % 2 * 64 + (i 1).val, by omega⟩ : Fin 128)) ?_).trans ?_
  · rw [Shape.rowMajor_val_three, Shape.rowMajor_val_two]
    show ((i 0).val / 8 * 4 + (i 0).val % 8 / 2) * 128 + ((i 0).val % 2 * 64 + (i 1).val) = (i 0).val * 64 + (i 1).val
    omega
  · unfold packedOf repeatedOf
    refine congrArg X (funext fun a => Fin.ext ?_)
    match a with
    | ⟨0, _⟩ => rfl
    | ⟨1, _⟩ => show ((i 0).val % 2 * 64 + (i 1).val) % 64 = (i 1).val; omega

/-! ## The host lines after the region -/

/-- The fine coordinates of a coordinate array: the host lines' integer chain as ONE function — each coarse
    coordinate doubled, the 8 offsets of the 2 x 2 x 2 cell added, the [262144, 8, 3] result read as [2097152, 3]. -/
def ijkOf (x1 : (⟨S262144x3, .i32⟩ : BufTy).Contents (Elt F)) : (⟨S2097152x3, .i32⟩ : BufTy).Contents (Elt F) :=
  shapeCast _ (addi (broadcastInDim S262144x8x3 ![0, 1, 2] bcast_S262144x1x3_S262144x8x3_0_1_2 (muli (broadcastInDim S262144x1x3 ![0, 2] bcast_S262144x3_S262144x1x3_0_2 (x1)) (broadcastInDim S262144x1x3 ![] bcast_S_S262144x1x3 (constantI S_ 32 2#32)))) (broadcastInDim S262144x8x3 ![0, 1, 2] bcast_S1x8x3_S262144x8x3_0_1_2 (broadcastInDim S1x8x3 ![1, 2] bcast_S8x3_S1x8x3_1_2 (shapeCast _ (concatenate S2x2x2x3 3 [⟨S2x2x2x1, (broadcastInDim S2x2x2x1 ![0, 1, 2] bcast_S2x2x2_S2x2x2x1_0_1_2 (broadcastInDim S2x2x2 ![0] bcast_S2_S2x2x2_0 (iotaInDim S2 32 0)))⟩, ⟨S2x2x2x1, (broadcastInDim S2x2x2x1 ![0, 1, 2] bcast_S2x2x2_S2x2x2x1_0_1_2 (broadcastInDim S2x2x2 ![1] bcast_S2_S2x2x2_1 (iotaInDim S2 32 0)))⟩, ⟨S2x2x2x1, (broadcastInDim S2x2x2x1 ![0, 1, 2] bcast_S2x2x2_S2x2x2x1_0_1_2 (broadcastInDim S2x2x2 ![2] bcast_S2_S2x2x2_2 (iotaInDim S2 32 0)))⟩] concatenates_S2x2x2x1_S2x2x2x1_S2x2x2x1_S2x2x2x3_d3) shapeCasts_S2x2x2x3_S8x3)))) shapeCasts_S262144x8x3_S2097152x3

/-- The host lines' first result from ANY contents `W` at the region's exit: the reshape of what the packed array holds. -/
theorem tail_fine_data (W : Valuation τ sig (Elt F)) :
    StableHlo.after hostOps1 W (Proc.devRef .tc main_v1)
      = shapeCast S2097152x64 (W (Proc.devRef .tc main_v0)) shapeCasts_S262144x4x128_S2097152x64 := by
  after_results <;> rfl

/-- Their second result from any such contents: the integer chain of what the coordinate array holds. -/
theorem tail_fine_ijk (W : Valuation τ sig (Elt F)) :
    StableHlo.after hostOps1 W (Proc.devRef .tc main_v20) = ijkOf (W (Proc.devRef .tc main_arg1)) := by
  unfold ijkOf
  after_results <;> rfl

/-- THE FIRST RESULT after @main: every row of the launched feature array repeated over its 8 fine rows. -/
theorem fine_data_after (c : Dev nD) :
    Pipeline.afterTail₀ cfgs (data m) 0 (entry m) [hostOps1] c main_v1
      = repeatedOf (m ((c : Thread nD τ).loc main_arg0)) := by
  unfold Pipeline.afterTail₀
  show StableHlo.after hostOps1 _ (Proc.devRef .tc main_v1) = _
  rw [tail_fine_data]
  have hW : Pipeline.withArrays (cfgs 0).spec c (entry m c) (fun w => (data m 0 c).arrAt w (cfgs 0).N) (Proc.devRef .tc main_v0)
      = packedOf (m ((c : Thread nD τ).loc main_arg0)) :=
    (Pipeline.withArrays_arr spec0 launch0.win.arr_inj c _ _ 1).trans (packed_final m c)
  rw [hW, reshape_packed]

/-- THE SECOND RESULT after @main: the fine coordinates of the launched coordinate array. -/
theorem fine_ijk_after (c : Dev nD) :
    Pipeline.afterTail₀ cfgs (data m) 0 (entry m) [hostOps1] c main_v20
      = ijkOf (m ((c : Thread nD τ).loc main_arg1)) := by
  unfold Pipeline.afterTail₀
  show StableHlo.after hostOps1 _ (Proc.devRef .tc main_v20) = _
  rw [tail_fine_ijk,
    Pipeline.withArrays_of_ne _ c (entry m c) _ main_arg1 (by exact (by decide : ∀ w, Pipeline.arrRef spec0 w ≠ main_arg1))]
  rfl

/-! ## The run, read -/

/-- Every weakly fair execution of @main terminates with the first result at the repetition of the launched feature
    array, the second at the fine coordinates of the launched coordinate array, and both arguments as launched. -/
theorem run : θ_run defs (onTc (τ := τ) (main (F := F))) ⟨m, fun _ => 0, ρ⟩ fun r => ∀ c : Dev nD,
      r.2.mem ((c.tc : Thread nD τ).loc main_v1) = repeatedOf (m ((c.tc : Thread nD τ).loc main_arg0))
      ∧ r.2.mem ((c.tc : Thread nD τ).loc main_v20) = ijkOf (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v1 (Pipeline.mem_restRefs_of main_v1 (by decide) (by decide))).trans (fine_data_after m c),
     ((h c).2 main_v20 (Pipeline.mem_restRefs_of main_v20 (by decide) (by decide))).trans (fine_ijk_after m c),
     ((h c).1 0).trans (((data m 0 c).arrAt_in 0 rfl _).trans (data_A m c 0)),
     ((h c).2 main_arg1 (Pipeline.mem_restRefs_of main_arg1 (by decide) (by decide))).trans (arg1_kept m c)⟩) (run_around m ρ)

end Cert.KernelIdeal.Upsample

end
-- ==== Proof.RefValue.lean ====
/-
  The reference's two results are the kernel program's two functions of the arguments.

  The reference broadcasts the feature array [262144, 64] to [262144, 1, 64], then to [262144, 8, 64], and reads the result
  row-major as [2097152, 64]: entry (r, k) sits at position 64 r + k = 512 (r / 8) + 64 (r mod 8) + k, that is entry
  (r / 8, r mod 8, k) of the broadcast, which is the feature array's row r / 8 at column k — the repetition.
  Its fine coordinates are computed by the same integer chain of operations, literal for literal, as the kernel
  program's host lines: one function of the coordinate array.
-/
import proofs.«122983_j22359599743098_2_alg».proof.Proof.Gen.ReferenceIdeal.Read
import proofs.«122983_j22359599743098_2_alg».proof.Proof.ValueIdeal

noncomputable section

namespace Cert.ReferenceIdeal.RefValue

open Idealize.ShloMosaic Idealize.ShloMosaic.ValueIdx
open Cert.ReferenceIdeal Cert.ReferenceIdeal.Gen Cert.ReferenceIdeal.Read

variable {F : FTy → Type} [FloatOps F]

/-- The reference's first result is the repetition of the feature array. -/
theorem fine_data_eq (x0 : (⟨S262144x64, .f32⟩ : BufTy).Contents (Elt F)) :
    val_main_v21 (F := F) x0 = Cert.KernelIdeal.Upsample.repeatedOf (F := F) x0 := by
  funext i
  have h0 : (i 0).val < 2097152 := (i 0).isLt
  have h1 : (i 1).val < 64 := (i 1).isLt
  rw [val_main_v21_apply, val_main_v20_apply, val_main_v19_apply]
  unfold Cert.KernelIdeal.Upsample.repeatedOf
  refine congrArg x0 (funext fun a => Fin.ext ?_)
  match a with
  | ⟨0, _⟩ => show ((i 0).val * 64 + (i 1).val) / 512 = (i 0).val / 8; omega
  | ⟨1, _⟩ => show ((i 0).val * 64 + (i 1).val) % 64 = (i 1).val; omega

/-- The reference's second result is the same integer chain of the coordinate array. -/
theorem fine_ijk_eq (x1 : (⟨S262144x3, .i32⟩ : BufTy).Contents (Elt F)) :
    val_main_v18 (F := F) x1 = Cert.KernelIdeal.Upsample.ijkOf (F := F) x1 := rfl

end Cert.ReferenceIdeal.RefValue

end
-- ==== Proof.lean ====
/-
  Nearest-neighbour subdivision of a sparse voxel grid: each of 262144 coarse voxels, a feature row of 64 floats and an
  integer coordinate triple, becomes 8 fine voxels carrying the parent's feature row, at coordinates 2 * ijk + offset
  over the 2 x 2 x 2 cell.

  The kernel program produces the fine features by one pallas region and one reshape: at grid point t the body takes rows
  [2048 t, 2048 t + 2048) of the feature array, lays each row twice side by side (128 lanes) and repeats it over 4 groups;
  the blocks tile a packed array [262144, 4, 128], whose row-major reading as [2097152, 64] puts the coarse row r / 8 at
  fine row r. The reference broadcasts the feature array over a new axis of extent 8 and reads [262144, 8, 64] row-major
  as [2097152, 64]: coarse row r / 8 at fine row r again. No float operation is applied on either side, so the two results
  agree entry by entry on every extended real, finite or not: the precondition is not used.
  The fine coordinates are computed on both sides by the same integer operations with the same literals: one function of
  the coordinate array.

  The three frames: both kernel programs run the region (the body's triple at a symbolic point, the launch around the
  region, the host lines after it), and no line writes an argument array; the reference is a straight line of host
  operations. The ideal pass rewrote nothing, so the kernel's idealization is its own text read at the ideal instance.
-/
import proofs.«122983_j22359599743098_2_alg».proof.Defs
import proofs.«122983_j22359599743098_2_alg».proof.Proof.Gen.Kernel
import proofs.«122983_j22359599743098_2_alg».proof.Proof.Gen.KernelIdeal
import proofs.«122983_j22359599743098_2_alg».proof.Proof.Gen.ReferenceIdeal
import proofs.«122983_j22359599743098_2_alg».proof.Proof.Gen.Pre_finite_inputs
import proofs.«122983_j22359599743098_2_alg».proof.Proof.Gen.ReferenceIdeal.Run
import proofs.«122983_j22359599743098_2_alg».proof.Proof.Gen.ReferenceIdeal.Read
import proofs.«122983_j22359599743098_2_alg».proof.Proof.FrameBits
import proofs.«122983_j22359599743098_2_alg».proof.Proof.ValueIdeal
import proofs.«122983_j22359599743098_2_alg».proof.Proof.RefValue
import Idealize.ShloMosaic.Adequacy
import Idealize.ShloMosaic.Init

noncomputable section

namespace Cert.Proof.UpsampleClaims

open Idealize.ShloMosaic Idealize.SL.Sem

/-- The word-level kernel program runs and leaves both argument arrays as launched. -/
theorem frame_kernel : Cert.frame_Kernel :=
  fun m ρ _ => Cert.Kernel.Upsample.frame m ρ

/-- So does its reading at the ideal instance. -/
theorem frame_kernel_ideal : Cert.frame_KernelIdeal :=
  fun m ρ _ => Cert.KernelIdeal.Upsample.frame m ρ

/-- The reference is a straight line of host operations: its run, with the results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- The ideal pass rewrote no operation of the kernel program. -/
theorem preserves : Cert.preserves_Kernel_KernelIdeal := trivial

/-- From memories agreeing on the arguments both programs end with the repetition of the feature array and the fine
    coordinates of the coordinate array. -/
theorem algebraic : Cert.algebraic_KernelIdeal_ReferenceIdeal := by
  intro m ρ m' ρ' _ hagree
  refine ⟨fun c => Cert.KernelIdeal.Upsample.repeatedOf (F := Ideal) (m ((c.tc : Thread Cert.KernelIdeal.nD Cert.KernelIdeal.τ).loc Cert.KernelIdeal.main_arg0)),
    fun c => Cert.KernelIdeal.Upsample.ijkOf (F := Ideal) (m ((c.tc : Thread Cert.KernelIdeal.nD Cert.KernelIdeal.τ).loc Cert.KernelIdeal.main_arg1)),
    Cert.KernelIdeal.Upsample.run (F := Ideal) m ρ, ?_⟩
  refine (θ_run Cert.ReferenceIdeal.defs _ _).mono (fun _ h c => ⟨(h c).1.trans ?_, (h c).2.1.trans ?_, (h c).2.2.1, (h c).2.2.2⟩)
    (Cert.ReferenceIdeal.Value.run (F := Ideal) m' ρ')
  · rw [(hagree c).1]
    exact Cert.ReferenceIdeal.RefValue.fine_data_eq (F := Ideal) _
  · rw [(hagree c).2]
    exact Cert.ReferenceIdeal.RefValue.fine_ijk_eq (F := Ideal) _

end Cert.Proof.UpsampleClaims

namespace Cert.Proof

open Cert.Proof.UpsampleClaims

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
